-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x96x224x224 : Shape := ⟨4, ![32, 96, 224, 224]⟩
abbrev S_ : Shape := ⟨0, ![]⟩

class Facts : Prop where
  bcast_S_S32x96x224x224 : S_.BroadcastsInDim S32x96x224x224 (![] : Fin 0 → Fin S32x96x224x224.rank)
  reducesTo_S32x96x224x224_S_d0_1_2_3 : S32x96x224x224.ReducesTo [0, 1, 2, 3] S_
  h_S_ : 0 < S_.numel

variable [Facts]

def fn {F : FTy → Type} [FloatOps F] (main_arg0 : FVec F S32x96x224x224 .f32) : IVec S_ 1 :=
  let main_v0 : FVec F S32x96x224x224 .f32 := Host.absf main_arg0
  let main_cst : FVec F S_ .f32 := constant S_ .f32 0x7F800000#32
  let main_v1 : FVec F S32x96x224x224 .f32 := broadcastInDim S32x96x224x224 ![] bcast_S_S32x96x224x224 main_cst
  let main_v2 : IVec S32x96x224x224 1 := cmpf .olt main_v0 main_v1
  let main_c : IVec S_ 1 := constantI S_ 1 1#1
  let main_v3 : IVec S_ 1 := (fun x v => Host.reduce IntOp.andi x v reducesTo_S32x96x224x224_S_d0_1_2_3 h_S_) main_v2 main_c
  main_v3
-- ==== Kernel.lean ====
abbrev S32x96x224x224 : Shape := ⟨4, ![32, 96, 224, 224]⟩
abbrev S3072x224x224 : Shape := ⟨3, ![3072, 224, 224]⟩
abbrev S3072x112x112 : Shape := ⟨3, ![3072, 112, 112]⟩
abbrev S32x224x224 : Shape := ⟨3, ![32, 224, 224]⟩
abbrev S32x112x112 : Shape := ⟨3, ![32, 112, 112]⟩
abbrev S32x112x2x224 : Shape := ⟨4, ![32, 112, 2, 224]⟩
abbrev S32x112x224 : Shape := ⟨3, ![32, 112, 224]⟩
abbrev S32x112x112x2 : Shape := ⟨4, ![32, 112, 112, 2]⟩
abbrev S32x96x112x112 : Shape := ⟨4, ![32, 96, 112, 112]⟩

abbrev nBuf : Space → Nat
  | .hbm => 4
  | .vmem => 4
  | .smem => 0
  | _ => 0

abbrev bufTy : (tb : Table) → Fin (tcTables nBuf tb) → BufTy
  | .hbm, ⟨0, _⟩ => ⟨S32x96x224x224, .f32⟩
  | .hbm, ⟨1, _⟩ => ⟨S3072x224x224, .f32⟩
  | .hbm, ⟨2, _⟩ => ⟨S3072x112x112, .f32⟩
  | .hbm, ⟨3, _⟩ => ⟨S32x96x112x112, .f32⟩
  | .local _ .vmem, ⟨0, _⟩ => ⟨S32x224x224, .f32⟩
  | .local _ .vmem, ⟨1, _⟩ => ⟨S32x224x224, .f32⟩
  | .local _ .vmem, ⟨2, _⟩ => ⟨S32x112x112, .f32⟩
  | .local _ .vmem, ⟨3, _⟩ => ⟨S32x112x112, .f32⟩
  | _, _ => ⟨S32x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x96x224x224_S3072x224x224 : S32x96x224x224.ShapeCasts S3072x224x224
  inb_S32x224x224_S32x224x224_0_0_0 : ∀ a, (![0, 0, 0] : Fin 3 → Nat) a + S32x224x224.size a ≤ S32x224x224.size a
  h_S32x224x224 : 0 < S32x224x224.numel
  shapeCasts_S32x224x224_S32x224x224 : S32x224x224.ShapeCasts S32x224x224
  shapeCasts_S32x224x224_S32x112x2x224 : S32x224x224.ShapeCasts S32x112x2x224
  reduces_S32x112x2x224_S32x112x224 : S32x112x2x224.Reduces [2] S32x112x224
  shapeCasts_S32x112x224_S32x112x112x2 : S32x112x224.ShapeCasts S32x112x112x2
  reduces_S32x112x112x2_S32x112x112 : S32x112x112x2.Reduces [3] S32x112x112
  inb_S32x112x112_S32x112x112_0_0_0 : ∀ a, (![0, 0, 0] : Fin 3 → Nat) a + S32x112x112.size a ≤ S32x112x112.size a
  h_S32x112x112 : 0 < S32x112x112.numel
  shapeCasts_S3072x112x112_S32x96x112x112 : S3072x112x112.ShapeCasts S32x96x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x224x224.size a ≤ S3072x224x224.size a
  hwx0_0 : ∀ i : grid0.Coords, EltTy.bits .f32 = 32 ∨ (Rect.block (s := S3072x224x224) S32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x112x112.size a ≤ S3072x112x112.size a
  hwx0_1 : ∀ i : grid0.Coords, EltTy.bits .f32 = 32 ∨ (Rect.block (s := S3072x112x112) S32x112x112.size (cc0_transform_1 i) (hinb0_1 i)).WholeWords (EltTy.packing .f32)

variable [Facts₀]

abbrev win0_0 : Pipeline.Window sig grid0 :=
  Pipeline.Window.ofSpec (Memref.whole main_v0) S32x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x96x224x224 : Shape := ⟨4, ![32, 96, 224, 224]⟩
abbrev S_ : Shape := ⟨0, ![]⟩
abbrev S32x96x112x112 : Shape := ⟨4, ![32, 96, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S32x96x224x224, .f32⟩
  | .hbm, ⟨1, _⟩ => ⟨S_, .f32⟩
  | .hbm, ⟨2, _⟩ => ⟨S_, .f32⟩
  | .hbm, ⟨3, _⟩ => ⟨S32x96x112x112, .f32⟩
  | _, _ => ⟨S32x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x96x224x224_S32x96x112x112_w1s1p0_0_w1s1p0_0_w2s2p0_0_w2s2p0_0 : S32x96x224x224.ReduceWindows (![1, 1, 2, 2] : Fin 4 → Nat) ![1, 1, 2, 2] ![0, 0, 0, 0] ![0, 0, 0, 0] S32x96x112x112
  h_S_ : 0 < S_.numel

variable [Facts₀]

class Facts : Prop extends Facts₀ where

variable [Facts]
-- ==== Proof.PoolSpec.lean ====
/-
  Two-by-two max pooling with stride two, on the extended reals.

  An image of 224 × 224 entries is cut into 112 × 112 windows of 2 × 2 entries; the pooled image holds each
  window's maximum. Output row `h` is fed by rows `2h` and `2h + 1`, output column `w` by columns `2w` and
  `2w + 1` (`dbl`). On the extended reals `max` is associative, commutative and has `⊥` (the value of the f32
  pattern of −∞) as its identity, so the maximum of a window does not depend on the order in which its four
  entries are met, nor on how many times the seed −∞ is joined in: this file states the pooled value once
  (`poolAt` over a stack of images, `pool4At` over a batch of stacks), and reads at an index
    * a maximum over the middle axis of size two of a [32,112,2,224] view of a [32,224,224] block (`rowPair_apply`),
    * a maximum over the last axis of size two of a [32,112,112,2] view of a [32,112,224] block (`colPair_apply`),
    * the left fold of `max` from −∞ over the four positions of a (1,1,2,2) window with strides (1,1,2,2)
      (`window_apply`),
  and says that a stack of 3072 images is the batch of 32 × 96 images laid out row-major (`pool_reshape`).
-/
import Idealize.ShloMosaic.PureOps.Ideal
import Idealize.ShloMosaic.PureOps.Ideal.Laws
import Idealize.ShloMosaic.Lib.ValueIdx
import Idealize.ShloMosaic.Lib.Pipeline.Value

noncomputable section

namespace Cert.MaxPool

open Idealize.ShloMosaic Idealize.ShloMosaic.ValueIdx

/-! ## The pooled value -/

/-- Member `δ` of the pair of input rows (or columns) that feeds output row (or column) `h`: `2h + δ`. -/
def dbl (h : Fin 112) (δ : Fin 2) : Fin 224 := ⟨2 * h.val + δ.val, by have := h.isLt; have := δ.isLt; omega⟩

theorem dbl_val (h : Fin 112) (δ : Fin 2) : (dbl h δ).val = 2 * h.val + δ.val := rfl

/-- The maximum of window (`h`, `w`) of image `b` of a stack: down each of the two columns first, then across. -/
def poolAt {B : Nat} (x : (⟨3, ![B, 224, 224]⟩ : Shape).Idx → EReal) (b : Fin B) (h w : Fin 112) : EReal :=
  max (max (x (ix3 b (dbl h 0) (dbl w 0))) (x (ix3 b (dbl h 1) (dbl w 0))))
      (max (x (ix3 b (dbl h 0) (dbl w 1))) (x (ix3 b (dbl h 1) (dbl w 1))))

/-- A stack of images, pooled. -/
def pool3 {B : Nat} (x : (⟨3, ![B, 224, 224]⟩ : Shape).Idx → EReal) : (⟨3, ![B, 112, 112]⟩ : Shape).Idx → EReal :=
  fun i => poolAt x (i 0) (i 1) (i 2)

theorem pool3_apply {B : Nat} (x : (⟨3, ![B, 224, 224]⟩ : Shape).Idx → EReal) (b : Fin B) (h w : Fin 112) :
    pool3 x (ix3 b h w) = poolAt x b h w := rfl

/-- The same window's maximum in a batch of 32 stacks of 96 images. -/
def pool4At (x : (⟨4, ![32, 96, 224, 224]⟩ : Shape).Idx → EReal) (n : Fin 32) (c : Fin 96) (h w : Fin 112) : EReal :=
  max (max (x (ix4 n c (dbl h 0) (dbl w 0))) (x (ix4 n c (dbl h 1) (dbl w 0))))
      (max (x (ix4 n c (dbl h 0) (dbl w 1))) (x (ix4 n c (dbl h 1) (dbl w 1))))

/-- The batch, pooled: the function both programs compute. -/
def pool4 (x : (⟨4, ![32, 96, 224, 224]⟩ : Shape).Idx → EReal) : (⟨4, ![32, 96, 112, 112]⟩ : Shape).Idx → EReal :=
  fun i => pool4At x (i 0) (i 1) (i 2) (i 3)

theorem pool4_apply (x : (⟨4, ![32, 96, 224, 224]⟩ : Shape).Idx → EReal) (n : Fin 32) (c : Fin 96) (h w : Fin 112) :
    pool4 x (ix4 n c h w) = pool4At x n c h w := rfl

/-! ## −∞ and a maximum over a pair -/

/-- The f32 pattern of −∞ is the least extended real: the identity of `max`. -/
theorem negInf_eq_bot : Ideal.ofBits .f32 0xFF800000#32 = (⊥ : EReal) := by simp [Ideal.ofBits, Ideal.ieee]

/-- The fold of `max` from −∞ over a two-element axis is the maximum of the two entries. -/
theorem fold_max_pair (g : Fin 2 → EReal) :
    (Finset.univ : Finset (Fin 2)).fold max (Ideal.ofBits .f32 0xFF800000#32) g = max (g 0) (g 1) := by
  rw [negInf_eq_bot]
  simp only [Fin.univ_succ, Finset.fold_cons, Finset.fold_map, Finset.univ_unique, Finset.fold_singleton]
  show max (g 0) (max (g 1) ⊥) = _
  rw [max_bot_right]

/-! ## The two pair maxima read at an index -/

/-- In the [32,112,2,224] view, the index over (`b`, `h`, `w`) with `k` inserted on the pair axis. -/
theorem lift_row (hr : (⟨4, ![32, 112, 2, 224]⟩ : Shape).Reduces [2] ⟨3, ![32, 112, 224]⟩)
    (b : Fin 32) (h : Fin 112) (w : Fin 224) (k : Fin 2) : hr.lift (ix3 b h w) k = ix4 b h k w := by
  funext a
  match a with
  | ⟨0, _⟩ => exact Fin.ext rfl
  | ⟨1, _⟩ => exact Fin.ext rfl
  | ⟨2, _⟩ => exact Fin.ext rfl
  | ⟨3, _⟩ => exact Fin.ext rfl

/-- A [32,224,224] block viewed as [32,112,2,224] holds, at (`b`, `h`, `k`, `w`), the block's row `2h + k`. -/
theorem view_row (v : (⟨3, ![32, 224, 224]⟩ : Shape).Idx → EReal)
    (hc : (⟨3, ![32, 224, 224]⟩ : Shape).ShapeCasts ⟨4, ![32, 112, 2, 224]⟩)
    (b : Fin 32) (h : Fin 112) (k : Fin 2) (w : Fin 224) :
    shapeCast ⟨4, ![32, 112, 2, 224]⟩ v hc (ix4 b h k w) = v (ix3 b (dbl h k) w) := by
  refine shapeCast_apply v hc _ _ ?_
  rw [Shape.rowMajor_val_three, Shape.rowMajor_val_four]
  show (b.val * 224 + (2 * h.val + k.val)) * 224 + w.val = ((b.val * 112 + h.val) * 2 + k.val) * 224 + w.val
  omega

/-- The maximum over the pair axis of that view, from −∞: the larger of rows `2h` and `2h + 1` at column `w`. -/
theorem rowPair_apply (v : (⟨3, ![32, 224, 224]⟩ : Shape).Idx → EReal)
    (hc : (⟨3, ![32, 224, 224]⟩ : Shape).ShapeCasts ⟨4, ![32, 112, 2, 224]⟩)
    (hr : (⟨4, ![32, 112, 2, 224]⟩ : Shape).Reduces [2] ⟨3, ![32, 112, 224]⟩)
    (hφ : FKind.Formats .f32) (hacc : (0xFF800000#32 : BitVec 32) = FKind.maximumf.neutral .f32 hφ)
    (b : Fin 32) (h : Fin 112) (w : Fin 224) :
    multiReduction (F := Ideal) .maximumf [2] ⟨3, ![32, 112, 224]⟩ (shapeCast ⟨4, ![32, 112, 2, 224]⟩ v hc)
        0xFF800000#32 hr hφ hacc (ix3 b h w)
      = max (v (ix3 b (dbl h 0) w)) (v (ix3 b (dbl h 1) w)) := by
  refine (Ideal.multiReduction_maximumf_single _ _ hr hφ hacc (ix3 b h w)).trans ?_
  refine (fold_max_pair _).trans ?_
  show max (shapeCast _ v hc (hr.lift (ix3 b h w) (0 : Fin 2))) (shapeCast _ v hc (hr.lift (ix3 b h w) (1 : Fin 2))) = _
  rw [lift_row, lift_row, view_row, view_row]

/-- In the [32,112,112,2] view, the index over (`b`, `h`, `w`) with `k` inserted on the pair axis. -/
theorem lift_col (hr : (⟨4, ![32, 112, 112, 2]⟩ : Shape).Reduces [3] ⟨3, ![32, 112, 112]⟩)
    (b : Fin 32) (h w : Fin 112) (k : Fin 2) : hr.lift (ix3 b h w) k = ix4 b h w k := by
  funext a
  match a with
  | ⟨0, _⟩ => exact Fin.ext rfl
  | ⟨1, _⟩ => exact Fin.ext rfl
  | ⟨2, _⟩ => exact Fin.ext rfl
  | ⟨3, _⟩ => exact Fin.ext rfl

/-- A [32,112,224] block viewed as [32,112,112,2] holds, at (`b`, `h`, `w`, `k`), the block's column `2w + k`. -/
theorem view_col (u : (⟨3, ![32, 112, 224]⟩ : Shape).Idx → EReal)
    (hc : (⟨3, ![32, 112, 224]⟩ : Shape).ShapeCasts ⟨4, ![32, 112, 112, 2]⟩)
    (b : Fin 32) (h w : Fin 112) (k : Fin 2) :
    shapeCast ⟨4, ![32, 112, 112, 2]⟩ u hc (ix4 b h w k) = u (ix3 b h (dbl w k)) := by
  refine shapeCast_apply u hc _ _ ?_
  rw [Shape.rowMajor_val_three, Shape.rowMajor_val_four]
  show (b.val * 112 + h.val) * 224 + (2 * w.val + k.val) = ((b.val * 112 + h.val) * 112 + w.val) * 2 + k.val
  omega

/-- The maximum over the pair axis of that view, from −∞: the larger of columns `2w` and `2w + 1` in row `h`. -/
theorem colPair_apply (u : (⟨3, ![32, 112, 224]⟩ : Shape).Idx → EReal)
    (hc : (⟨3, ![32, 112, 224]⟩ : Shape).ShapeCasts ⟨4, ![32, 112, 112, 2]⟩)
    (hr : (⟨4, ![32, 112, 112, 2]⟩ : Shape).Reduces [3] ⟨3, ![32, 112, 112]⟩)
    (hφ : FKind.Formats .f32) (hacc : (0xFF800000#32 : BitVec 32) = FKind.maximumf.neutral .f32 hφ)
    (b : Fin 32) (h w : Fin 112) :
    multiReduction (F := Ideal) .maximumf [3] ⟨3, ![32, 112, 112]⟩ (shapeCast ⟨4, ![32, 112, 112, 2]⟩ u hc)
        0xFF800000#32 hr hφ hacc (ix3 b h w)
      = max (u (ix3 b h (dbl w 0))) (u (ix3 b h (dbl w 1))) := by
  refine (Ideal.multiReduction_maximumf_single _ _ hr hφ hacc (ix3 b h w)).trans ?_
  refine (fold_max_pair _).trans ?_
  show max (shapeCast _ u hc (hr.lift (ix3 b h w) (0 : Fin 2))) (shapeCast _ u hc (hr.lift (ix3 b h w) (1 : Fin 2))) = _
  rw [lift_col, lift_col, view_col, view_col]

/-! ## The window fold read at an index -/

/-- Position `k` of the (1,1,2,2) window, row-major: (0, 0, k / 2, k % 2). -/
theorem window_pos : ∀ k : Fin (⟨4, ![1, 1, 2, 2]⟩ : Shape).numel,
    (((⟨4, ![1, 1, 2, 2]⟩ : Shape).rowMajor.symm k) (0 : Fin 4)).val = 0
    ∧ (((⟨4, ![1, 1, 2, 2]⟩ : Shape).rowMajor.symm k) (1 : Fin 4)).val = 0
    ∧ (((⟨4, ![1, 1, 2, 2]⟩ : Shape).rowMajor.symm k) (2 : Fin 4)).val = k.val / 2
    ∧ (((⟨4, ![1, 1, 2, 2]⟩ : Shape).rowMajor.symm k) (3 : Fin 4)).val = k.val % 2 := by decide

/-- Every position of the window over output (`n`, `c`, `h`, `w`) lies inside the image: no padding is met. -/
theorem window_inside (e : (4 : Nat) = 4) (n : Fin 32) (c : Fin 96) (h w : Fin 112) (k : Fin (⟨4, ![1, 1, 2, 2]⟩ : Shape).numel) (a : Fin 4) :
    (![0, 0, 0, 0] : Fin 4 → Nat) a ≤ (ix4 n c h w (Fin.cast e a)).val * (![1, 1, 2, 2] : Fin 4 → Nat) a + (((⟨4, ![1, 1, 2, 2]⟩ : Shape).rowMajor.symm k) a).val
    ∧ (ix4 n c h w (Fin.cast e a)).val * (![1, 1, 2, 2] : Fin 4 → Nat) a + (((⟨4, ![1, 1, 2, 2]⟩ : Shape).rowMajor.symm k) a).val - (![0, 0, 0, 0] : Fin 4 → Nat) a
        < (![32, 96, 224, 224] : Fin 4 → Nat) a := by
  obtain ⟨p0, p1, p2, p3⟩ := window_pos k
  have hk : k.val < 4 := k.isLt
  match a with
  | ⟨0, _⟩ =>
    show 0 ≤ n.val * 1 + (((⟨4, ![1, 1, 2, 2]⟩ : Shape).rowMajor.symm k) (0 : Fin 4)).val ∧ n.val * 1 + (((⟨4, ![1, 1, 2, 2]⟩ : Shape).rowMajor.symm k) (0 : Fin 4)).val - 0 < 32
    rw [p0]; have := n.isLt; omega
  | ⟨1, _⟩ =>
    show 0 ≤ c.val * 1 + (((⟨4, ![1, 1, 2, 2]⟩ : Shape).rowMajor.symm k) (1 : Fin 4)).val ∧ c.val * 1 + (((⟨4, ![1, 1, 2, 2]⟩ : Shape).rowMajor.symm k) (1 : Fin 4)).val - 0 < 96
    rw [p1]; have := c.isLt; omega
  | ⟨2, _⟩ =>
    show 0 ≤ h.val * 2 + (((⟨4, ![1, 1, 2, 2]⟩ : Shape).rowMajor.symm k) (2 : Fin 4)).val ∧ h.val * 2 + (((⟨4, ![1, 1, 2, 2]⟩ : Shape).rowMajor.symm k) (2 : Fin 4)).val - 0 < 224
    rw [p2]; have := h.isLt; omega
  | ⟨3, _⟩ =>
    show 0 ≤ w.val * 2 + (((⟨4, ![1, 1, 2, 2]⟩ : Shape).rowMajor.symm k) (3 : Fin 4)).val ∧ w.val * 2 + (((⟨4, ![1, 1, 2, 2]⟩ : Shape).rowMajor.symm k) (3 : Fin 4)).val - 0 < 224
    rw [p3]; have := w.isLt; omega

/-- Position `k` of that window is entry (`2h + k / 2`, `2w + k % 2`) of image (`n`, `c`). -/
theorem window_index (e : (4 : Nat) = 4) (n : Fin 32) (c : Fin 96) (h w : Fin 112) (k : Fin (⟨4, ![1, 1, 2, 2]⟩ : Shape).numel)
    (δ ε : Fin 2) (hδ : k.val / 2 = δ.val) (hε : k.val % 2 = ε.val)
    (pf : ∀ a : Fin 4, (ix4 n c h w (Fin.cast e a)).val * (![1, 1, 2, 2] : Fin 4 → Nat) a + (((⟨4, ![1, 1, 2, 2]⟩ : Shape).rowMajor.symm k) a).val - (![0, 0, 0, 0] : Fin 4 → Nat) a
        < (![32, 96, 224, 224] : Fin 4 → Nat) a) :
    (fun a : Fin 4 => (⟨(ix4 n c h w (Fin.cast e a)).val * (![1, 1, 2, 2] : Fin 4 → Nat) a + (((⟨4, ![1, 1, 2, 2]⟩ : Shape).rowMajor.symm k) a).val - (![0, 0, 0, 0] : Fin 4 → Nat) a, pf a⟩ : Fin ((![32, 96, 224, 224] : Fin 4 → Nat) a)))
      = ix4 n c (dbl h δ) (dbl w ε) := by
  obtain ⟨p0, p1, p2, p3⟩ := window_pos k
  funext a
  apply Fin.ext
  match a with
  | ⟨0, _⟩ =>
    show n.val * 1 + (((⟨4, ![1, 1, 2, 2]⟩ : Shape).rowMajor.symm k) (0 : Fin 4)).val - 0 = n.val
    rw [p0]; omega
  | ⟨1, _⟩ =>
    show c.val * 1 + (((⟨4, ![1, 1, 2, 2]⟩ : Shape).rowMajor.symm k) (1 : Fin 4)).val - 0 = c.val
    rw [p1]; omega
  | ⟨2, _⟩ =>
    show h.val * 2 + (((⟨4, ![1, 1, 2, 2]⟩ : Shape).rowMajor.symm k) (2 : Fin 4)).val - 0 = 2 * h.val + δ.val
    rw [p2, hδ]; omega
  | ⟨3, _⟩ =>
    show w.val * 2 + (((⟨4, ![1, 1, 2, 2]⟩ : Shape).rowMajor.symm k) (3 : Fin 4)).val - 0 = 2 * w.val + ε.val
    rw [p3, hε]; omega

/-- The left fold of `max` from −∞ over the window's four positions is the window's maximum: −∞ is absorbed and
    the four entries are regrouped by associativity and commutativity. -/
theorem window_apply (x : (⟨4, ![32, 96, 224, 224]⟩ : Shape).Idx → EReal) (init : (⟨0, ![]⟩ : Shape).Idx → EReal)
    (hinit : ∀ i, init i = Ideal.ofBits .f32 0xFF800000#32)
    (hw : (⟨4, ![32, 96, 224, 224]⟩ : Shape).ReduceWindows (![1, 1, 2, 2] : Fin 4 → Nat) ![1, 1, 2, 2] ![0, 0, 0, 0] ![0, 0, 0, 0] ⟨4, ![32, 96, 112, 112]⟩)
    (hu : 0 < (⟨0, ![]⟩ : Shape).numel) (n : Fin 32) (c : Fin 96) (h w : Fin 112) :
    Host.reduceWindow (FloatOps.maximumf (F := Ideal) (φ := .f32)) ![1, 1, 2, 2] ![1, 1, 2, 2] ![0, 0, 0, 0] ![0, 0, 0, 0] x init hw hu (ix4 n c h w)
      = pool4At x n c h w := by
  unfold Host.reduceWindow
  dsimp only
  rw [hinit, negInf_eq_bot,
    show List.finRange (⟨4, ![1, 1, 2, 2]⟩ : Shape).numel = [⟨0, by decide⟩, ⟨1, by decide⟩, ⟨2, by decide⟩, ⟨3, by decide⟩] from by decide]
  simp only [List.foldl_cons, List.foldl_nil]
  refine (congrArg₂ FloatOps.maximumf (congrArg₂ FloatOps.maximumf (congrArg₂ FloatOps.maximumf (congrArg₂ FloatOps.maximumf rfl
    ((dif_pos (window_inside _ n c h w _)).trans (congrArg x (window_index _ n c h w _ 0 0 rfl rfl _))))
    ((dif_pos (window_inside _ n c h w _)).trans (congrArg x (window_index _ n c h w _ 0 1 rfl rfl _))))
    ((dif_pos (window_inside _ n c h w _)).trans (congrArg x (window_index _ n c h w _ 1 0 rfl rfl _))))
    ((dif_pos (window_inside _ n c h w _)).trans (congrArg x (window_index _ n c h w _ 1 1 rfl rfl _)))).trans ?_
  show max (max (max (max ⊥ _) _) _) _ = _
  unfold pool4At
  rw [max_bot_left]
  ac_rfl

/-! ## A stack of 3072 images is the batch of 32 × 96 images -/

/-- Image `c` of stack `n` of the batch, as its position in the flat stack: `96 n + c`. -/
def img (n : Fin 32) (c : Fin 96) : Fin 3072 := ⟨n.val * 96 + c.val, by have := n.isLt; have := c.isLt; omega⟩

/-- Pooling the batch viewed as one flat stack of images, and viewing the result as a batch again, is pooling the
    batch: the two views only renumber the images (row-major), and pooling acts inside each image. -/
theorem pool_reshape (x : (⟨4, ![32, 96, 224, 224]⟩ : Shape).Idx → EReal)
    (hin : (⟨4, ![32, 96, 224, 224]⟩ : Shape).ShapeCasts ⟨3, ![3072, 224, 224]⟩)
    (hout : (⟨3, ![3072, 112, 112]⟩ : Shape).ShapeCasts ⟨4, ![32, 96, 112, 112]⟩) :
    shapeCast ⟨4, ![32, 96, 112, 112]⟩ (pool3 (B := 3072) (shapeCast ⟨3, ![3072, 224, 224]⟩ x hin)) hout = pool4 x := by
  funext i
  obtain ⟨n, c, h, w, rfl⟩ : ∃ (n : Fin 32) (c : Fin 96) (h w : Fin 112), i = ix4 n c h w := ⟨i 0, i 1, i 2, i 3, eq_ix4 i⟩
  rw [pool4_apply]
  refine (shapeCast_apply _ hout (ix4 n c h w) (ix3 (img n c) h w) ?_).trans ?_
  · rw [Shape.rowMajor_val_three, Shape.rowMajor_val_four]
    rfl
  rw [pool3_apply]
  unfold poolAt pool4At
  have e : ∀ r s : Fin 224, shapeCast ⟨3, ![3072, 224, 224]⟩ x hin (ix3 (img n c) r s) = x (ix4 n c r s) := fun r s =>
    shapeCast_apply x hin _ _ (by rw [Shape.rowMajor_val_four, Shape.rowMajor_val_three]; rfl)
  rw [e, e, e, e]

end Cert.MaxPool

end
-- ==== Proof.RefPool.lean ====
/-
  The reference's side: its one window reduction IS the pooled batch.

  The reference seeds the fold of every 2 × 2 window with the constant −∞ (a rank-zero constant passed through a
  rank-zero broadcast, which changes nothing) and folds `max` over the window's four entries in row-major order.
  Index by index that is the window's maximum (`window_apply`).
-/
import proofs.«117615_j69861938037161_2_alg».proof.Proof.Gen.ReferenceIdeal.Read
import proofs.«117615_j69861938037161_2_alg».proof.Proof.PoolSpec

noncomputable section

namespace Cert.ReferenceIdeal.RefValue

open Cert.ReferenceIdeal Cert.ReferenceIdeal.Gen Cert.MaxPool Idealize.ShloMosaic Idealize.ShloMosaic.ValueIdx

/-- The seed the reference folds from is −∞ at its one index. -/
theorem seed_apply (j : S_.Idx) : Read.val_main_v0 (F := Ideal) j = Ideal.ofBits .f32 0xFF800000#32 := by
  rw [Read.val_main_v0_apply, Read.val_main_cst_apply]
  rfl

/-- The reference's result, as a function of its argument, is the pooled batch. -/
theorem ref_eq (x : (⟨S32x96x224x224, .f32⟩ : BufTy).Contents (Elt Ideal)) :
    Read.val_main_v1 (F := Ideal) x = pool4 x := by
  funext i
  obtain ⟨n, c, h, w, rfl⟩ : ∃ (n : Fin 32) (c : Fin 96) (h w : Fin 112), i = ix4 n c h w :=
    ⟨i 0, i 1, i 2, i 3, eq_ix4 i⟩
  rw [pool4_apply]
  unfold Read.val_main_v1
  exact window_apply x _ seed_apply _ _ n c h w

end Cert.ReferenceIdeal.RefValue

end
-- ==== Proof.KernelPool.lean ====
/-
  The kernel's side: after the run the array of pooled stacks is `pool3` of the stack of images the region finds.

  The grid has 96 points; point `t` is handed images `32t … 32t + 31` of the flat stack of 3072 images, whole
  (all 224 rows and columns), and writes back the same 32 images of the pooled stack, whole. Its body takes the
  maximum over each pair of rows and then over each pair of columns, which is the 2 × 2 window's maximum
  (`pay_eq`). So what a point writes back is a block of ONE function of the whole stack (`flushed_eq`), the blocks
  of the 96 points tile the pooled stack (image `r` belongs to point `r / 32`), and the array after the run is
  that function (`final`). The stack the region finds is the argument batch renumbered row-major (`V_stack`).
-/
import proofs.«117615_j69861938037161_2_alg».proof.Proof.Gen.KernelIdeal.Frame
import proofs.«117615_j69861938037161_2_alg».proof.Proof.PoolSpec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.PoolValue

open Cert.KernelIdeal Cert.KernelIdeal.Gen Cert.MaxPool Idealize.ShloMosaic.ValueIdx

variable (m : (ℓ : Loc nD τ sig) → Buf (Elt Ideal) ℓ) (ρ : Dev nD → PrngReg)

/-! ## The body: pairs of rows, then pairs of columns -/

/-- The body's stored value is its loaded block, pooled: at (`b`, `h`, `w`) the maximum over columns `2w`, `2w + 1` of
    the maxima over rows `2h`, `2h + 1`. -/
theorem pay_eq (v0 : Vec Ideal S32x224x224 .f32) : k0_pay1 (F := Ideal) v0 = pool3 (B := 32) v0 := by
  funext j
  obtain ⟨b, h, w, rfl⟩ : ∃ (b : Fin 32) (h w : Fin 112), j = ix3 b h w := ⟨j 0, j 1, j 2, eq_ix3 j⟩
  rw [pool3_apply]
  unfold k0_pay1
  refine (colPair_apply _ _ _ _ _ b h w).trans ?_
  unfold poolAt
  refine congrArg₂ max ((rowPair_apply _ _ _ _ _ b h (dbl w 0)).trans ?_) ((rowPair_apply _ _ _ _ _ b h (dbl w 1)).trans ?_)
  · rw [shapeCast_self]
  · rw [shapeCast_self]

/-! ## The stack the region finds -/

/-- The one host line before the region renumbers the argument batch as a flat stack of images. -/
theorem V_stack (c : Dev nD) : (V m c main_v0 : S3072x224x224.Idx → EReal)
    = shapeCast S3072x224x224 (m ((c : Thread nD τ).loc main_arg0)) shapeCasts_S32x96x224x224_S3072x224x224 := by
  show StableHlo.after hostOps0 (fun b => m (c, b)) (Proc.devRef .tc main_v0) = _
  after_results
  rfl

/-! ## The blocks -/

theorem hz : (![0, 0, 0] : Fin 3 → Nat) = fun _ => 0 := funext fun a => by fin_cases a <;> rfl

/-- Both windows move along the stack axis only, one block of 32 images per grid point. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem lt_N (t : Fin cfg0.N) : t.val < 96 := lt_of_lt_of_eq t.isLt (N_0 : cfg0.N = 96)

/-- Image `b` of point `t`'s block, as its position in the flat stack: `32 t + b`. -/
def row (t : Fin cfg0.N) (b : Fin 32) : Fin 3072 := ⟨t.val * 32 + b.val, by have := lt_N t; have := b.isLt; omega⟩

/-- The input block at point `t` holds images `32t … 32t + 31` of the stack, whole. -/
theorem iblk_apply (c : Dev nD) (t : Fin cfg0.N) (b : Fin 32) (r s : Fin 224) :
    (iblk m c 0 t : Vec Ideal S32x224x224 .f32) (ix3 b r s) = (V m c main_v0 : S3072x224x224.Idx → EReal) (ix3 (row t b) r s) := by
  obtain ⟨e0, e1, e2, -, -, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 32 + 1 * b.val = t.val * 32 + b.val; rw [e0]; omega
  | ⟨1, _⟩ => show win0_0.index t (1 : Fin 3) * 224 + 1 * r.val = r.val; rw [e1]; omega
  | ⟨2, _⟩ => show win0_0.index t (2 : Fin 3) * 224 + 1 * s.val = s.val; rw [e2]; omega

/-- Entry (`b`, `h`, `w`) of the output block at point `t` sits at image `32 t + b` of the pooled stack. -/
theorem oblk_emb (t : Fin cfg0.N) (b : Fin 32) (h w : Fin 112) :
    ((cfg0.win 1).blk t).view.emb (ix3 b h w) = (ix3 (row t b) h w : S3072x112x112.Idx) := by
  obtain ⟨-, -, -, e3, e4, e5⟩ := idx_facts t
  funext a
  apply Fin.ext
  match a with
  | ⟨0, _⟩ => show win0_1.index t (0 : Fin 3) * 32 + 1 * b.val = t.val * 32 + b.val; rw [e3]; omega
  | ⟨1, _⟩ => show win0_1.index t (1 : Fin 3) * 112 + 1 * h.val = h.val; rw [e4]; omega
  | ⟨2, _⟩ => show win0_1.index t (2 : Fin 3) * 112 + 1 * w.val = w.val; rw [e5]; omega

/-- WHAT POINT `t` WRITES BACK is block `t` of the pooled stack. -/
theorem flushed_eq (c : Dev nD) (t : Fin cfg0.N) :
    (dats m 0 c).flushed 1 t = ((cfg0.win 1).blk t).view.read (Elt Ideal) (pool3 (B := 3072) (V m c main_v0)) := by
  show (cfg0.win 1).cut (grid0.coords t) ((dats m 0 c).after 1 t) = _
  rw [after0_1]
  unfold out0_1
  rw [View.canon_unit_zero hz]
  simp only [View.ld_unit_zero (S := S32x224x224) hz]
  rw [pay_eq]
  funext j
  obtain ⟨b, h, w, rfl⟩ : ∃ (b : Fin 32) (h w : Fin 112), j = ix3 b h w := ⟨j 0, j 1, j 2, eq_ix3 j⟩
  show pool3 (B := 32) (iblk m c 0 t) (ix3 b h w) = pool3 (B := 3072) (V m c main_v0) (((cfg0.win 1).blk t).view.emb (ix3 b h w))
  rw [oblk_emb, pool3_apply, pool3_apply]
  unfold poolAt
  rw [iblk_apply, iblk_apply, iblk_apply, iblk_apply]

/-! ## The array after the run -/

/-- An image of the pooled stack is in point `t`'s block iff each coordinate is in the block's range on its axis. -/
theorem mem_blk (t : Fin cfg0.N) (i : S3072x112x112.Idx) :
    i ∈ ((cfg0.win 1).blk t).view.set ↔ ∀ a : Fin 3, win0_1.index t a * S32x112x112.size a ≤ (i a).val
      ∧ (i a).val < win0_1.index t a * S32x112x112.size a + S32x112x112.size a := by
  show i ∈ ((View.whole main_v1).slice (win0_1.rect t)).set ↔ _
  rw [View.set_slice_whole, Rect.mem_set_unit]
  exact Iff.rfl

/-- Every entry of the pooled stack is in the block of the point that holds its image: image `r` at point `r / 32`. -/
theorem cover (i : S3072x112x112.Idx) :
    ∃ t : Fin cfg0.N, (cfg0.win 1).flush t = true ∧ i ∈ ((cfg0.win 1).blk t).view.set := by
  have h0 : (i 0).val < 3072 := (i 0).isLt
  have h1 : (i 1).val < 112 := (i 1).isLt
  have h2 : (i 2).val < 112 := (i 2).isLt
  have hN : cfg0.N = 96 := N_0
  refine ⟨⟨(i 0).val / 32, by rw [hN]; omega⟩, flush0_1 _, ?_⟩
  rw [mem_blk]
  obtain ⟨-, -, -, e3, e4, e5⟩ := idx_facts ⟨(i 0).val / 32, by rw [hN]; omega⟩
  intro a
  match a with
  | ⟨0, _⟩ =>
    show win0_1.index _ (0 : Fin 3) * 32 ≤ (i 0).val ∧ (i 0).val < win0_1.index _ (0 : Fin 3) * 32 + 32
    rw [e3]; show (i 0).val / 32 * 32 ≤ (i 0).val ∧ (i 0).val < (i 0).val / 32 * 32 + 32; omega
  | ⟨1, _⟩ =>
    show win0_1.index _ (1 : Fin 3) * 112 ≤ (i 1).val ∧ (i 1).val < win0_1.index _ (1 : Fin 3) * 112 + 112
    rw [e4]; omega
  | ⟨2, _⟩ =>
    show win0_1.index _ (2 : Fin 3) * 112 ≤ (i 2).val ∧ (i 2).val < win0_1.index _ (2 : Fin 3) * 112 + 112
    rw [e5]; omega

/-- THE ARRAY after the run: the stack the region found, pooled. -/
theorem final (c : Dev nD) : (dats m 0 c).arrAt 1 cfg0.N = pool3 (B := 3072) (V m c main_v0) :=
  (dats m 0 c).arrAt_eq_of_cover 1 (pool3 (B := 3072) (V m c main_v0)) (fun t _ => flushed_eq m c t) cover

end Cert.KernelIdeal.PoolValue

end
-- ==== Proof.KernelRun.lean ====
/-
  The kernel's run, read: its result is the pooled batch.

  After the region one host line views the pooled stack of 3072 images as a batch of 32 × 96 images again. The
  pooled stack is `pool3` of the flat stack the region found (`final`), that stack is the argument batch viewed
  flat (`V_stack`), and pooling commutes with the two views (`pool_reshape`): the result is `pool4` of the argument.
-/
import proofs.«117615_j69861938037161_2_alg».proof.Proof.KernelPool

noncomputable section

open Idealize.ShloMosaic Idealize.ShloMosaic.TcCoe Idealize.SL.Sem
open Idealize.ShloMosaic.Pipeline (Dat)

namespace Cert.KernelIdeal.PoolValue

open Cert.KernelIdeal Cert.KernelIdeal.Gen Cert.MaxPool Idealize.ShloMosaic.ValueIdx

variable (m : (ℓ : Loc nD τ sig) → Buf (Elt Ideal) ℓ) (ρ : Dev nD → PrngReg)

/-- What the host line after the region leaves in the result: the pooled argument batch. -/
theorem tail_eq (c : Dev nD) :
    Pipeline.afterTail₀ cfgs (dats m) 0 (V0 m) [hostOps1] c main_v2 = pool4 (m ((c : Thread nD τ).loc main_arg0)) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 1))
      = pool3 (B := 3072) (shapeCast S3072x224x224 (m ((c : Thread nD τ).loc main_arg0)) shapeCasts_S32x96x224x224_S3072x224x224) :=
    (Pipeline.withArrays_arr spec0 launch0.win.arr_inj c _ _ 1).trans ((final m c).trans (congrArg (pool3 (B := 3072)) (V_stack m c)))
  show shapeCast S32x96x112x112 (Pipeline.withArrays spec0 c (V0 m c) (fun w => (dats m 0 c).arrAt w cfg0.N)
      (Proc.devRef .tc (Pipeline.arrRef spec0 1))) shapeCasts_S3072x112x112_S32x96x112x112 = _
  rw [e]
  exact pool_reshape _ _ _

/-- THE RUN, read: every weakly fair execution of the kernel's program terminates with the result at the pooled
    argument batch and the argument unchanged. -/
theorem run : θ_run defs (onTc (τ := τ) (main (F := Ideal))) ⟨m, fun _ => 0, ρ⟩ fun r => ∀ c : Dev nD,
      r.2.mem ((c.tc : Thread nD τ).loc main_v2) = pool4 (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.PoolValue

end
-- ==== Proof.lean ====
/-
  Two-by-two max pooling with stride two of a batch of 32 × 96 images of 224 × 224 entries: a tiled kernel against
  a window reduction.

  The kernel views the batch as a flat stack of 3072 images, hands 32 images at a time to its body, which takes
  the maximum over each pair of rows and then over each pair of columns, and views the pooled stack as a batch
  again. The reference folds `max` from −∞ over every 2 × 2 window in row-major order. On the extended reals `max` is
  associative and commutative and −∞ is its identity, so both results are, entry by entry, the maximum of the
  window's four entries (`Cert.MaxPool.pool4`): the kernel's by `Cert.KernelIdeal.PoolValue.run`, the reference's by
  `Cert.ReferenceIdeal.RefValue.ref_eq`. No entry needs to be finite for this, so the precondition is never opened.
  The idealization rewrote nothing in the kernel, so there is nothing to preserve.
-/
import proofs.«117615_j69861938037161_2_alg».proof.Defs
import proofs.«117615_j69861938037161_2_alg».proof.Proof.Gen.Kernel
import proofs.«117615_j69861938037161_2_alg».proof.Proof.Gen.Kernel.Skeleton
import proofs.«117615_j69861938037161_2_alg».proof.Proof.Gen.Kernel.Launch
import proofs.«117615_j69861938037161_2_alg».proof.Proof.Gen.Kernel.Points
import proofs.«117615_j69861938037161_2_alg».proof.Proof.Gen.Kernel.Frame
import proofs.«117615_j69861938037161_2_alg».proof.Proof.Gen.KernelIdeal
import proofs.«117615_j69861938037161_2_alg».proof.Proof.Gen.KernelIdeal.Skeleton
import proofs.«117615_j69861938037161_2_alg».proof.Proof.Gen.KernelIdeal.Launch
import proofs.«117615_j69861938037161_2_alg».proof.Proof.Gen.KernelIdeal.Points
import proofs.«117615_j69861938037161_2_alg».proof.Proof.Gen.KernelIdeal.Frame
import proofs.«117615_j69861938037161_2_alg».proof.Proof.Gen.ReferenceIdeal
import proofs.«117615_j69861938037161_2_alg».proof.Proof.Gen.ReferenceIdeal.Run
import proofs.«117615_j69861938037161_2_alg».proof.Proof.Gen.ReferenceIdeal.Read
import proofs.«117615_j69861938037161_2_alg».proof.Proof.Gen.Pre_finite_inputs
import Idealize.ShloMosaic.Adequacy
import Idealize.ShloMosaic.Init
import proofs.«117615_j69861938037161_2_alg».proof.Proof.PoolSpec
import proofs.«117615_j69861938037161_2_alg».proof.Proof.RefPool
import proofs.«117615_j69861938037161_2_alg».proof.Proof.KernelRun

noncomputable section

namespace Cert.Proof

open Idealize.ShloMosaic Idealize.SL.Sem Cert.MaxPool

/-- The kernel's program as printed runs and leaves its argument unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the pooled argument batch: the kernel's run states it, and the reference's window
    reduction of an agreeing argument is the same function. -/
theorem algebraic : Cert.algebraic_KernelIdeal_ReferenceIdeal := by
  intro m ρ m' ρ' _ hagree
  refine ⟨fun c => pool4 (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
